-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S800000 : Shape := ⟨1, ![800000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S100000x128 .f32) (main_arg1 : IVec S800000 32) (main_arg2 : IVec S800000 32) (main_arg3 : FVec F S128x128 .f32) (main_arg4 : FVec F S128x128 .f32) (main_arg5 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S100000x128 : Shape := ⟨2, ![100000, 128]⟩
abbrev S800000 : Shape := ⟨1, ![800000]⟩
abbrev S128x128 : Shape := ⟨2, ![128, 128]⟩
abbrev S128 : Shape := ⟨1, ![128]⟩
abbrev S_ : Shape := ⟨0, ![]⟩
abbrev S800000x1 : Shape := ⟨2, ![800000, 1]⟩
abbrev S800000x128 : Shape := ⟨2, ![800000, 128]⟩
abbrev S100000 : Shape := ⟨1, ![100000]⟩
abbrev S100000x1 : Shape := ⟨2, ![100000, 1]⟩
abbrev S1x128 : Shape := ⟨2, ![1, 128]⟩
abbrev S5000x128 : Shape := ⟨2, ![5000, 128]⟩

abbrev nBuf : Space → Nat
  | .hbm => 33
  | .vmem => 9
  | .smem => 0
  | _ => 0

abbrev bufTy : (tb : Table) → Fin (tcTables nBuf tb) → BufTy
  | .hbm, ⟨0, _⟩ => ⟨S100000x128, .f32⟩
  | .hbm, ⟨1, _⟩ => ⟨S800000, .i32⟩
  | .hbm, ⟨2, _⟩ => ⟨S800000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S_, .i32⟩
  | .hbm, ⟨7, _⟩ => ⟨S800000, .i32⟩
  | .hbm, ⟨8, _⟩ => ⟨S800000, .i1⟩
  | .hbm, ⟨9, _⟩ => ⟨S_, .i32⟩
  | .hbm, ⟨10, _⟩ => ⟨S800000, .i32⟩
  | .hbm, ⟨11, _⟩ => ⟨S800000, .i32⟩
  | .hbm, ⟨12, _⟩ => ⟨S800000, .i32⟩
  | .hbm, ⟨13, _⟩ => ⟨S800000x1, .i32⟩
  | .hbm, ⟨14, _⟩ => ⟨S800000x128, .f32⟩
  | .hbm, ⟨15, _⟩ => ⟨S_, .f32⟩
  | .hbm, ⟨16, _⟩ => ⟨S100000x128, .f32⟩
  | .hbm, ⟨17, _⟩ => ⟨S800000x1, .i32⟩
  | .hbm, ⟨18, _⟩ => ⟨S100000x128, .f32⟩
  | .hbm, ⟨19, _⟩ => ⟨S_, .f32⟩
  | .hbm, ⟨20, _⟩ => ⟨S800000, .f32⟩
  | .hbm, ⟨21, _⟩ => ⟨S_, .f32⟩
  | .hbm, ⟨22, _⟩ => ⟨S100000, .f32⟩
  | .hbm, ⟨23, _⟩ => ⟨S800000x1, .i32⟩
  | .hbm, ⟨24, _⟩ => ⟨S100000, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S100000x1, .f32⟩
  | .hbm, ⟨29, _⟩ => ⟨S100000x128, .f32⟩
  | .hbm, ⟨30, _⟩ => ⟨S100000x128, .f32⟩
  | .hbm, ⟨31, _⟩ => ⟨S1x128, .f32⟩
  | .hbm, ⟨32, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S5000x128, .f32⟩
  | .local _ .vmem, ⟨8, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_cst : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_cst_1 : Ref sig .tc := ⟨.hbm, 19, rfl⟩
abbrev main_call0_v10 : Ref sig .tc := ⟨.hbm, 20, rfl⟩
abbrev main_call0_cst_2 : Ref sig .tc := ⟨.hbm, 21, rfl⟩
abbrev main_call0_v11 : Ref sig .tc := ⟨.hbm, 22, rfl⟩
abbrev main_call0_v12 : Ref sig .tc := ⟨.hbm, 23, rfl⟩
abbrev main_call0_v13 : Ref sig .tc := ⟨.hbm, 24, rfl⟩
abbrev main_call0_cst_3 : Ref sig .tc := ⟨.hbm, 25, rfl⟩
abbrev main_call0_v14 : Ref sig .tc := ⟨.hbm, 26, rfl⟩
abbrev main_call0_v15 : Ref sig .tc := ⟨.hbm, 27, rfl⟩
abbrev main_call0_v16 : Ref sig .tc := ⟨.hbm, 28, rfl⟩
abbrev main_call0_v17 : Ref sig .tc := ⟨.hbm, 29, rfl⟩
abbrev main_call0_v18 : Ref sig .tc := ⟨.hbm, 30, rfl⟩
abbrev main_call0_v19 : Ref sig .tc := ⟨.hbm, 31, rfl⟩
abbrev main_v0 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  gather_S100000x128_S800000x1_S800000x128_1_0_n_n_0_1_1128_wf : GatherDims.WF S100000x128 S800000x1 S800000x128 [1] [0] [] [0] [] 1 ![1, 128]
  scatter_S100000x128_S800000x1_S800000x128_1_0_0_1_wf : ScatterDims.WF S100000x128 S800000x1 S800000x128 [1] [0] [0] 1
  scatter_S100000_S800000x1_S800000_n_0_0_1_wf : ScatterDims.WF S100000 S800000x1 S800000 [] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)

variable [Facts₀]

def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v18) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v19) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S100000x128 : Shape := ⟨2, ![100000, 128]⟩
abbrev S800000 : Shape := ⟨1, ![800000]⟩
abbrev S128x128 : Shape := ⟨2, ![128, 128]⟩
abbrev S128 : Shape := ⟨1, ![128]⟩
abbrev S_ : Shape := ⟨0, ![]⟩
abbrev S800000x1 : Shape := ⟨2, ![800000, 1]⟩
abbrev S800000x128 : Shape := ⟨2, ![800000, 128]⟩
abbrev S100000 : Shape := ⟨1, ![100000]⟩
abbrev S100000x1 : Shape := ⟨2, ![100000, 1]⟩
abbrev S1x128 : Shape := ⟨2, ![1, 128]⟩

abbrev nBuf : Space → Nat
  | .hbm => 40
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S800000, .i32⟩
  | .hbm, ⟨2, _⟩ => ⟨S800000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S_, .i32⟩
  | .hbm, ⟨7, _⟩ => ⟨S800000, .i32⟩
  | .hbm, ⟨8, _⟩ => ⟨S800000, .i1⟩
  | .hbm, ⟨9, _⟩ => ⟨S_, .i32⟩
  | .hbm, ⟨10, _⟩ => ⟨S800000, .i32⟩
  | .hbm, ⟨11, _⟩ => ⟨S800000, .i32⟩
  | .hbm, ⟨12, _⟩ => ⟨S800000, .i32⟩
  | .hbm, ⟨13, _⟩ => ⟨S800000x1, .i32⟩
  | .hbm, ⟨14, _⟩ => ⟨S800000x128, .f32⟩
  | .hbm, ⟨15, _⟩ => ⟨S_, .f32⟩
  | .hbm, ⟨16, _⟩ => ⟨S100000x128, .f32⟩
  | .hbm, ⟨17, _⟩ => ⟨S800000x1, .i32⟩
  | .hbm, ⟨18, _⟩ => ⟨S100000x128, .f32⟩
  | .hbm, ⟨19, _⟩ => ⟨S_, .f32⟩
  | .hbm, ⟨20, _⟩ => ⟨S800000, .f32⟩
  | .hbm, ⟨21, _⟩ => ⟨S_, .f32⟩
  | .hbm, ⟨22, _⟩ => ⟨S100000, .f32⟩
  | .hbm, ⟨23, _⟩ => ⟨S800000x1, .i32⟩
  | .hbm, ⟨24, _⟩ => ⟨S100000, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S100000x1, .f32⟩
  | .hbm, ⟨29, _⟩ => ⟨S100000x128, .f32⟩
  | .hbm, ⟨30, _⟩ => ⟨S100000x128, .f32⟩
  | .hbm, ⟨31, _⟩ => ⟨S100000x128, .f32⟩
  | .hbm, ⟨32, _⟩ => ⟨S100000x128, .f32⟩
  | .hbm, ⟨33, _⟩ => ⟨S100000x128, .f32⟩
  | .hbm, ⟨34, _⟩ => ⟨S1x128, .f32⟩
  | .hbm, ⟨35, _⟩ => ⟨S100000x128, .f32⟩
  | .hbm, ⟨36, _⟩ => ⟨S100000x128, .f32⟩
  | .hbm, ⟨37, _⟩ => ⟨S_, .f32⟩
  | .hbm, ⟨38, _⟩ => ⟨S100000x128, .f32⟩
  | .hbm, ⟨39, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_3 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_call0_cst : Ref sig .tc := ⟨.hbm, 37, rfl⟩
abbrev main_call0_v0 : Ref sig .tc := ⟨.hbm, 38, rfl⟩
abbrev main_v25 : Ref sig .tc := ⟨.hbm, 39, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S800000x1_S800000x128_1_0_n_n_0_1_1128_wf : GatherDims.WF S100000x128 S800000x1 S800000x128 [1] [0] [] [0] [] 1 ![1, 128]
  scatter_S100000x128_S800000x1_S800000x128_1_0_0_1_wf : ScatterDims.WF S100000x128 S800000x1 S800000x128 [1] [0] [0] 1
  scatter_S100000_S800000x1_S800000_n_0_0_1_wf : ScatterDims.WF S100000 S800000x1 S800000 [] [0] [0] 1
  dot_S100000x128_S128x128_S100000x128_1_0_0_1_n_n_wf : DotDims.WF S100000x128 S128x128 S100000x128 [1] [0] [0] [1] [] []

variable [Facts₀]

def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.SageLayer.lean ====
/-
  One dense layer on node features and neighbour means, entry by entry, on the extended reals.

  For node features `x` and neighbour means `hn` (both 100000 rows of 128 features), two 128 × 128 weight
  matrices `ws`, `wn` and a bias `b` with one entry per output feature, entry `(p, q)` of the layer's output is
      max ( (Σₖ x[p,k]·ws[k,q] + Σₖ hn[p,k]·wn[k,q]) + b[q] , 0 ),
  the sums over the 128 features of row `p`. The grouping of the three summands is the one both programs use, so no
  law of the extended reals beyond the meaning of each operation is needed to compare them. The zero the maximum is
  taken against is kept as the f32 word both programs spell.
-/
import Idealize.ShloMosaic.PureOps.Ideal
import Idealize.ShloMosaic.Lib.ValueIdx

noncomputable section

namespace Cert.SageLayer

open Idealize.ShloMosaic Idealize.ShloMosaic.ValueIdx

/-- Row `p` of `a` (any number of rows, 128 features) against column `q` of the 128 × 128 matrix `w`: the sum over
    the 128 features of the products. -/
def rowDot {n : Nat} (a : (⟨2, ![n, 128]⟩ : Shape).Idx → EReal) (w : (⟨2, ![128, 128]⟩ : Shape).Idx → EReal)
    (p : Fin n) (q : Fin 128) : EReal :=
  ∑ k : Fin 128, a (ix2 p k) * w (ix2 k q)

/-- Entry `(p, q)` of the layer from the two row-by-column sums and the bias entry: the sums added, then the bias,
    then the maximum with the f32 zero. -/
def activate (self neigh bias : EReal) : EReal :=
  max ((self + neigh) + bias) (Ideal.ofBits .f32 0x00000000#32)

/-- The whole output array: entry `(p, q)` from row `p` of the features and of the neighbour means, column `q` of the
    two weight matrices, and bias entry `q`. -/
def layer (x hn : (⟨2, ![100000, 128]⟩ : Shape).Idx → EReal) (ws wn : (⟨2, ![128, 128]⟩ : Shape).Idx → EReal)
    (b : Fin 128 → EReal) : (⟨2, ![100000, 128]⟩ : Shape).Idx → EReal :=
  fun i => activate (rowDot x ws (i 0) (i 1)) (rowDot hn wn (i 0) (i 1)) (b (i 1))

theorem layer_apply (x hn : (⟨2, ![100000, 128]⟩ : Shape).Idx → EReal) (ws wn : (⟨2, ![128, 128]⟩ : Shape).Idx → EReal)
    (b : Fin 128 → EReal) (p : Fin 100000) (q : Fin 128) :
    layer x hn ws wn b (ix2 p q) = activate (rowDot x ws p q) (rowDot hn wn p q) (b q) := rfl

end Cert.SageLayer

end
-- ==== Proof.KernelPayload.lean ====
/-
  What one grid point's body stores, read at an entry of its 5000 × 128 block.

  The body loads a block of 5000 feature rows, the matching block of neighbour means, the two weight matrices whole
  and the bias as one row, and stores one 5000 × 128 value: each matrix product accumulated into a zero block, the two
  products added, the bias row repeated down the block and added, and the maximum with zero. On the extended reals a
  narrowing of the float format is the identity and a product accumulated into zero is the plain sum over the 128
  contracted features, so entry `(p, q)` of the stored value is the layer's entry from row `p` of the two loaded
  blocks.
-/
import proofs.«109456_j23115513987258_1_alg».proof.Proof.Gen.KernelIdeal.Skeleton
import proofs.«109456_j23115513987258_1_alg».proof.Proof.SageLayer
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.BlockValue

open Cert.KernelIdeal Cert.KernelIdeal.Gen Idealize.ShloMosaic Idealize.ShloMosaic.ValueIdx Cert.SageLayer

/-- The contraction of the body's matrix products: the left operand's axis 1 against the right operand's axis 0. -/
abbrev Dot := dot_S5000x128_S128x128_S5000x128_1_0_0_1_n_n

theorem lhs_row (i : S5000x128.Idx) (κ : Dot.contr.Idx) : (Dot.lhsIdx i κ 0).val = (i 0).val := by
  unfold DotDims.lhsIdx
  rw [dif_neg (show ¬(0 : Fin S5000x128.rank) ∈ Dot.lhsBatch by decide),
    dif_pos (show (0 : Fin S5000x128.rank) ∈ Dot.lhsNonContracting by decide)]
  rfl

theorem lhs_feature (i : S5000x128.Idx) (κ : Dot.contr.Idx) : (Dot.lhsIdx i κ 1).val = (κ ⟨0, by decide⟩).val :=
  Dot.lhsIdx_val_of_single rfl i κ

theorem rhs_feature (i : S5000x128.Idx) (κ : Dot.contr.Idx) : (Dot.rhsIdx i κ 0).val = (κ ⟨0, by decide⟩).val :=
  Dot.rhsIdx_val_of_single rfl i κ

theorem rhs_col (i : S5000x128.Idx) (κ : Dot.contr.Idx) : (Dot.rhsIdx i κ 1).val = (i 1).val := by
  unfold DotDims.rhsIdx
  rw [dif_neg (show ¬(1 : Fin S128x128.rank) ∈ Dot.rhsBatch by decide),
    dif_pos (show (1 : Fin S128x128.rank) ∈ Dot.rhsNonContracting by decide)]
  rfl

/-- A block times a weight matrix, accumulated into zero, at entry `(p, q)`: row `p` of the block against column `q`
    of the matrix. -/
theorem product_apply {φ₁ φ₂ : FTy} (l : FVec Ideal S5000x128 φ₁) (r : FVec Ideal S128x128 φ₂) (p : Fin 5000) (q : Fin 128) :
    matmul Dot none l r (constant S5000x128 .f32 0x00000000#32) (ix2 p q) = rowDot l r p q := by
  unfold rowDot
  simp only [matmul]
  rw [Ideal.matmul_constant_zero_apply, ← Equiv.sum_comp (contrEquiv1 Dot 128 rfl rfl).symm]
  refine Finset.sum_congr rfl fun k _ => ?_
  have hk := contrEquiv1_symm_val Dot 128 rfl rfl k
  have el : Dot.lhsIdx (ix2 p q) ((contrEquiv1 Dot 128 rfl rfl).symm k) = ix2 p k := funext fun a => Fin.ext (by
    match a with
    | ⟨0, _⟩ => exact lhs_row _ _
    | ⟨1, _⟩ => exact (lhs_feature _ _).trans hk)
  have er : Dot.rhsIdx (ix2 p q) ((contrEquiv1 Dot 128 rfl rfl).symm k) = ix2 k q := funext fun a => Fin.ext (by
    match a with
    | ⟨0, _⟩ => exact (rhs_feature _ _).trans hk
    | ⟨1, _⟩ => exact rhs_col _ _)
  rw [el, er]

/-- Entry `(p, q)` of the value the body stores, from the loaded blocks: the layer's entry with row `p` of the two
    5000-row blocks, the weight matrices whole, and entry `q` of the bias row. -/
theorem stored_apply (x hn : FVec Ideal S5000x128 .f32) (ws wn : FVec Ideal S128x128 .f32) (b : FVec Ideal S1x128 .f32)
    (p : Fin 5000) (q : Fin 128) :
    k0_pay1 (F := Ideal) x hn ws wn b (ix2 p q)
      = activate (rowDot x ws p q) (rowDot hn wn p q) (b (ix2 (0 : Fin 1) q)) := by
  unfold k0_pay1 activate
  rw [shapeCast_self, shapeCast_self]
  show max ((matmul (F := Ideal) Dot none (truncf .bf16 x bitsLt_bf16_f32) (truncf .bf16 ws bitsLt_bf16_f32) (constant S5000x128 .f32 0x00000000#32) (ix2 p q)
      + matmul (F := Ideal) Dot none (truncf .bf16 hn bitsLt_bf16_f32) (truncf .bf16 wn bitsLt_bf16_f32) (constant S5000x128 .f32 0x00000000#32) (ix2 p q))
      + broadcastTo S5000x128 b broadcasts_S1x128_S5000x128 (ix2 p q)) (Ideal.ofBits .f32 0x00000000#32) = _
  rw [product_apply, product_apply, broadcastTo_1b_ab_apply]
  rfl

end Cert.KernelIdeal.BlockValue

end
-- ==== Proof.KernelBlocks.lean ====
/-
  Each window's block at a grid point, read at an entry.

  The grid has 20 points. At point `t` the node features' window and the neighbour means' window hold rows
  `5000 t … 5000 t + 4999` of their arrays, the output's window is written back to the same rows, and the two weight
  matrices and the bias row are handed whole at every point. The printed index maps are decided once over the 20
  points; an entry of a block is then the array's entry at block index × block size + the coordinate in the block.
-/
import proofs.«109456_j23115513987258_1_alg».proof.Proof.Gen.KernelIdeal.Frame
import Idealize.ShloMosaic.Lib.Pipeline.Value
import Idealize.ShloMosaic.Lib.ValueIdx
import Idealize.ShloMosaic.PureOps.Ideal

noncomputable section

namespace Cert.KernelIdeal.ArrayValue

open Cert.KernelIdeal Cert.KernelIdeal.Gen Idealize.ShloMosaic Idealize.ShloMosaic.TcCoe Idealize.SL.Sem
open Idealize.ShloMosaic.ValueIdx
open Idealize.ShloMosaic.Pipeline (Dat)

/-- The printed index maps over the 20 grid points: the two row windows and the output move down with the point, the
    weights and the bias stay at block (0, 0). -/
theorem index_maps : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row `p` of point `t`'s block is row `5000 t + p` of the array. -/
def blockRow (t : Fin cfg0.N) (p : Fin 5000) : Fin 100000 :=
  ⟨t.val * 5000 + p.val, by have := t.isLt; have hN : cfg0.N = 20 := N_0; omega⟩

/-! ## Each window's block of an array, read at an entry

The array is a variable in each statement: what the launch finds in a window's array may be a long term of the
arguments, and none of these facts looks inside it. -/

/-- Entry `(p, k)` of the node features' block at point `t` is entry `(5000 t + p, k)` of the array. -/
theorem features_read (A : (⟨S100000x128, .f32⟩ : BufTy).Contents (Elt Ideal)) (t : Fin cfg0.N) (p : Fin 5000) (k : Fin 128) :
    (((cfg0.win 0).blk t).view.read (Elt Ideal) A : FVec Ideal S5000x128 .f32) (ix2 p k) = A (ix2 (blockRow t p) k) := by
  obtain ⟨e0, e1, -⟩ := index_maps t
  show A (((cfg0.win 0).blk t).view.emb (ix2 p k)) = A (ix2 (blockRow t p) k)
  refine congrArg A (funext fun a => Fin.ext ?_)
  match a with
  | ⟨0, _⟩ => show win0_0.index t (0 : Fin 2) * 5000 + 1 * p.val = t.val * 5000 + p.val; rw [e0]; omega
  | ⟨1, _⟩ => show win0_0.index t (1 : Fin 2) * 128 + 1 * k.val = k.val; rw [e1]; omega

/-- The same for the neighbour means' block. -/
theorem means_read (A : (⟨S100000x128, .f32⟩ : BufTy).Contents (Elt Ideal)) (t : Fin cfg0.N) (p : Fin 5000) (k : Fin 128) :
    (((cfg0.win 1).blk t).view.read (Elt Ideal) A : FVec Ideal S5000x128 .f32) (ix2 p k) = A (ix2 (blockRow t p) k) := by
  obtain ⟨-, -, e0, e1, -⟩ := index_maps t
  show A (((cfg0.win 1).blk t).view.emb (ix2 p k)) = A (ix2 (blockRow t p) k)
  refine congrArg A (funext fun a => Fin.ext ?_)
  match a with
  | ⟨0, _⟩ => show win0_1.index t (0 : Fin 2) * 5000 + 1 * p.val = t.val * 5000 + p.val; rw [e0]; omega
  | ⟨1, _⟩ => show win0_1.index t (1 : Fin 2) * 128 + 1 * k.val = k.val; rw [e1]; omega

/-- The first weight matrix is handed whole at every point. -/
theorem selfWeights_read (A : (⟨S128x128, .f32⟩ : BufTy).Contents (Elt Ideal)) (t : Fin cfg0.N) (k q : Fin 128) :
    (((cfg0.win 2).blk t).view.read (Elt Ideal) A : FVec Ideal S128x128 .f32) (ix2 k q) = A (ix2 k q) := by
  obtain ⟨-, -, -, -, e0, e1, -⟩ := index_maps t
  show A (((cfg0.win 2).blk t).view.emb (ix2 k q)) = A (ix2 k q)
  refine congrArg A (funext fun a => Fin.ext ?_)
  match a with
  | ⟨0, _⟩ => show win0_2.index t (0 : Fin 2) * 128 + 1 * k.val = k.val; rw [e0]; omega
  | ⟨1, _⟩ => show win0_2.index t (1 : Fin 2) * 128 + 1 * q.val = q.val; rw [e1]; omega

/-- So is the second. -/
theorem neighWeights_read (A : (⟨S128x128, .f32⟩ : BufTy).Contents (Elt Ideal)) (t : Fin cfg0.N) (k q : Fin 128) :
    (((cfg0.win 3).blk t).view.read (Elt Ideal) A : FVec Ideal S128x128 .f32) (ix2 k q) = A (ix2 k q) := by
  obtain ⟨-, -, -, -, -, -, e0, e1, -⟩ := index_maps t
  show A (((cfg0.win 3).blk t).view.emb (ix2 k q)) = A (ix2 k q)
  refine congrArg A (funext fun a => Fin.ext ?_)
  match a with
  | ⟨0, _⟩ => show win0_3.index t (0 : Fin 2) * 128 + 1 * k.val = k.val; rw [e0]; omega
  | ⟨1, _⟩ => show win0_3.index t (1 : Fin 2) * 128 + 1 * q.val = q.val; rw [e1]; omega

/-- And the bias row. -/
theorem biasRow_read (A : (⟨S1x128, .f32⟩ : BufTy).Contents (Elt Ideal)) (t : Fin cfg0.N) (q : Fin 128) :
    (((cfg0.win 4).blk t).view.read (Elt Ideal) A : FVec Ideal S1x128 .f32) (ix2 (0 : Fin 1) q) = A (ix2 (0 : Fin 1) q) := by
  obtain ⟨-, -, -, -, -, -, -, -, e0, e1, -⟩ := index_maps t
  show A (((cfg0.win 4).blk t).view.emb (ix2 (0 : Fin 1) q)) = A (ix2 (0 : Fin 1) q)
  refine congrArg A (funext fun a => Fin.ext ?_)
  match a with
  | ⟨0, _⟩ => show win0_4.index t (0 : Fin 2) * 1 + 1 * 0 = 0; rw [e0]
  | ⟨1, _⟩ => show win0_4.index t (1 : Fin 2) * 128 + 1 * q.val = q.val; rw [e1]; omega

/-- Entry `(p, q)` of the output's block at point `t` is entry `(5000 t + p, q)` of the array, whatever the array. -/
theorem output_read (A : (⟨S100000x128, .f32⟩ : BufTy).Contents (Elt Ideal)) (t : Fin cfg0.N) (p : Fin 5000) (q : Fin 128) :
    (((cfg0.win 5).blk t).view.read (Elt Ideal) A : FVec Ideal S5000x128 .f32) (ix2 p q) = A (ix2 (blockRow t p) q) := by
  obtain ⟨-, -, -, -, -, -, -, -, -, -, e0, e1⟩ := index_maps t
  show A (((cfg0.win 5).blk t).view.emb (ix2 p q)) = A (ix2 (blockRow t p) q)
  refine congrArg A (funext fun a => Fin.ext ?_)
  match a with
  | ⟨0, _⟩ => show win0_5.index t (0 : Fin 2) * 5000 + 1 * p.val = t.val * 5000 + p.val; rw [e0]; omega
  | ⟨1, _⟩ => show win0_5.index t (1 : Fin 2) * 128 + 1 * q.val = q.val; rw [e1]; omega

end Cert.KernelIdeal.ArrayValue

end
-- ==== Proof.LibTypedRefCasts.lean ====
/-
  Typed references to host buffers: contents carried to the buffer's own type and back.

  A host operation of a called function is spelt over typed references: each operand's contents are carried from the
  buffer's type to the value's type on the way in, and the result back on the way out. When such operations are
  composed, every intermediate value appears carried out and straight back in. That round trip is the identity, for
  any signature, any element values and any buffer type; rewriting with it leaves the composed operations bare.
-/
import Idealize.ShloMosaic.Lib.StableHlo

namespace Cert.Lib.TypedRefCasts

open Idealize.ShloMosaic Idealize.ShloMosaic.StableHlo

/-- Contents carried to a typed reference's buffer type and back are the contents: `x.ofBuf (x.toBuf v) = v`.
    Use it as a rewrite rule (`simp only [ofBuf_toBuf]`) on the composed term of a list of typed-reference host
    operations, before comparing that term with anything: it removes every paired transport and leaves only the
    transports at the argument buffers and at the result. -/
theorem ofBuf_toBuf {sig : RefSig} {Val : EltTy → Type} {T : BufTy} (x : TRef sig T) (v : T.Contents Val) :
    x.ofBuf (x.toBuf v) = v := by
  obtain ⟨r, rfl, _, _⟩ := x
  rfl

end Cert.Lib.TypedRefCasts
-- ==== Proof.KernelHostPrefix.lean ====
/-
  The two arrays the host operations before the launch prepare, as functions of the arguments.

  The neighbour means: negative source indices are wrapped by the number of nodes, the source rows are gathered, summed
  into their destination rows, and each row is divided by its destination's edge count clamped below by one. The term
  is kept closed: nothing downstream opens the gather or the sums. The bias row: the bias vector laid as a 1 × 128
  array.
-/
import proofs.«109456_j23115513987258_1_alg».proof.Proof.Gen.KernelIdeal.Frame
import proofs.«109456_j23115513987258_1_alg».proof.Proof.LibTypedRefCasts
import Idealize.ShloMosaic.Lib.StableHlo.Run
import Idealize.ShloMosaic.PureOps.Ideal

noncomputable section

namespace Cert.KernelIdeal.ArrayValue

open Cert.KernelIdeal Cert.KernelIdeal.Gen Idealize.ShloMosaic Idealize.ShloMosaic.TcCoe Idealize.SL.Sem
open Idealize.ShloMosaic.StableHlo

/-- The neighbour means as the host operations before the launch compute them, for any float values: negative
    source indices wrapped by the number of nodes, the source rows gathered, summed into their destination rows, and
    each row divided by its destination's edge count clamped below by one. -/
def neighbourMean {F : FTy → Type} [FloatOps F] (x : (⟨S100000x128, .f32⟩ : BufTy).Contents (Elt F))
    (src dst : (⟨S800000, .i32⟩ : BufTy).Contents (Elt F)) : (⟨S100000x128, .f32⟩ : BufTy).Contents (Elt F) :=
  Host.divf (Host.scatterAdd scatter_S100000x128_S800000x1_S800000x128_1_0_0_1 (broadcastInDim S100000x128 ![] bcast_S_S100000x128 (constant S_ .f32 0x00000000#32)) (broadcastInDim S800000x1 ![0] bcast_S800000_S800000x1_0 dst) (Host.gather gather_S100000x128_S800000x1_S800000x128_1_0_n_n_0_1_1128 x (broadcastInDim S800000x1 ![0] bcast_S800000_S800000x1_0 (select (cmpi .slt src (broadcastInDim S800000 ![] bcast_S_S800000 (constantI S_ 32 0#32))) (addi src (broadcastInDim S800000 ![] bcast_S_S800000 (constantI S_ 32 100000#32))) src)))) (broadcastInDim S100000x128 ![0, 1] bcast_S100000x1_S100000x128_0_1 (broadcastInDim S100000x1 ![0] bcast_S100000_S100000x1_0 (maximumf (Host.scatterAdd scatter_S100000_S800000x1_S800000_n_0_0_1 (broadcastInDim S100000 ![] bcast_S_S100000 (constant S_ .f32 0x00000000#32)) (broadcastInDim S800000x1 ![0] bcast_S800000_S800000x1_0 dst) (broadcastInDim S800000 ![] bcast_S_S800000 (constant S_ .f32 0x3F800000#32))) (broadcastInDim S100000 ![] bcast_S_S100000 (constant S_ .f32 0x3F800000#32)))))

variable (m : (ℓ : Loc nD τ sig) → Buf (Elt Ideal) ℓ)

/-- The three argument arrays the host operations read, as the launch memory holds them. -/
theorem features_arg (c : Dev nD) (h1 h2 h3) :
    (TRef.of (T := ⟨S100000x128, .f32⟩) main_arg0 h1 h2 h3).ofBuf (m (c, Proc.tc.devRef main_arg0)) = m ((c : Thread nD τ).loc main_arg0) := rfl
theorem sources_arg (c : Dev nD) (h1 h2 h3) :
    (TRef.of (T := ⟨S800000, .i32⟩) main_arg1 h1 h2 h3).ofBuf (m (c, Proc.tc.devRef main_arg1)) = m ((c : Thread nD τ).loc main_arg1) := rfl
theorem destinations_arg (c : Dev nD) (h1 h2 h3) :
    (TRef.of (T := ⟨S800000, .i32⟩) main_arg2 h1 h2 h3).ofBuf (m (c, Proc.tc.devRef main_arg2)) = m ((c : Thread nD τ).loc main_arg2) := rfl

set_option maxHeartbeats 2000000 in
/-- The host operations before the launch leave the neighbour means of the argument arrays. -/
theorem means_found (c : Dev nD) :
    (V m c main_call0_v18 : S100000x128.Idx → EReal)
      = neighbourMean (F := Ideal) (m ((c : Thread nD τ).loc main_arg0)) (m ((c : Thread nD τ).loc main_arg1)) (m ((c : Thread nD τ).loc main_arg2)) := by
  dsimp only [Gen.V, Gen.hostOps0]
  after_results_simp
  simp only [Cert.Lib.TypedRefCasts.ofBuf_toBuf, features_arg m c, sources_arg m c, destinations_arg m c]
  generalize hv : neighbourMean (F := Ideal) (m ((c : Thread nD τ).loc main_arg0)) (m ((c : Thread nD τ).loc main_arg1)) (m ((c : Thread nD τ).loc main_arg2)) = v
  unfold neighbourMean at hv
  rw [hv]
  rfl

/-- and the bias vector laid as one row. -/
theorem biasRow_found (c : Dev nD) :
    (V m c main_call0_v19 : S1x128.Idx → EReal)
      = shapeCast S1x128 (m ((c : Thread nD τ).loc main_arg5) : S128.Idx → EReal) shapeCasts_S128_S1x128 := by
  dsimp only [Gen.V, Gen.hostOps0]
  after_results
  rfl

end Cert.KernelIdeal.ArrayValue

end
-- ==== Proof.KernelArray.lean ====
/-
  The array the kernel's program leaves: the layer of the argument arrays, entry by entry.

  What point `t` writes back is block `t` of the layer's output: an entry of the stored value is the layer's entry
  from the rows the point was handed, and those are rows `5000 t + p` of the arrays. This is a fact about any five
  arrays read through the windows, and is proved with the arrays as variables. The twenty blocks cover every row, so
  the array after the run is the layer of the arrays as the launch finds them, and those are the argument arrays, the
  neighbour means of the arguments, and the bias vector as a row.
-/
import proofs.«109456_j23115513987258_1_alg».proof.Proof.Gen.KernelIdeal.Frame
import proofs.«109456_j23115513987258_1_alg».proof.Proof.Gen.KernelIdeal.Value
import proofs.«109456_j23115513987258_1_alg».proof.Proof.KernelPayload
import proofs.«109456_j23115513987258_1_alg».proof.Proof.KernelBlocks
import proofs.«109456_j23115513987258_1_alg».proof.Proof.KernelHostPrefix
import Idealize.ShloMosaic.Lib.Pipeline.Value
import Idealize.ShloMosaic.Lib.ValueLayout

noncomputable section

namespace Cert.KernelIdeal.ArrayValue

open Cert.KernelIdeal Cert.KernelIdeal.Gen Idealize.ShloMosaic Idealize.ShloMosaic.TcCoe Idealize.SL.Sem
open Idealize.ShloMosaic.ValueIdx Idealize.ShloMosaic.StableHlo Cert.SageLayer
open Idealize.ShloMosaic.Pipeline (Dat)

theorem origin : (![0, 0] : Fin 2 → Nat) = fun _ => 0 := funext fun a => by fin_cases a <;> rfl

/-! ## One point's block, for any arrays -/

/-- The value the body stores from the blocks of five arrays at point `t`, cut to the output's block, is block `t` of
    the layer of those arrays (the bias array's one row as the bias). -/
theorem block_layer (X HN : (⟨S100000x128, .f32⟩ : BufTy).Contents (Elt Ideal)) (WS WN : (⟨S128x128, .f32⟩ : BufTy).Contents (Elt Ideal))
    (B : (⟨S1x128, .f32⟩ : BufTy).Contents (Elt Ideal)) (t : Fin cfg0.N) :
    (cfg0.win 5).cut (grid0.coords t) (k0_pay1 (F := Ideal)
        (((cfg0.win 0).blk t).view.read (Elt Ideal) X) (((cfg0.win 1).blk t).view.read (Elt Ideal) HN)
        (((cfg0.win 2).blk t).view.read (Elt Ideal) WS) (((cfg0.win 3).blk t).view.read (Elt Ideal) WN)
        (((cfg0.win 4).blk t).view.read (Elt Ideal) B))
      = ((cfg0.win 5).blk t).view.read (Elt Ideal) (layer X HN WS WN (fun q => B (ix2 (0 : Fin 1) q))) := by
  funext j
  obtain ⟨p, q, rfl⟩ : ∃ (p : Fin 5000) (q : Fin 128), j = ix2 p q := ⟨j 0, j 1, eq_ix2 (n0 := 5000) (n1 := 128) j⟩
  generalize hG : layer X HN WS WN (fun q => B (ix2 (0 : Fin 1) q)) = G
  rw [output_read G t p q, ← hG, layer_apply]
  show k0_pay1 (F := Ideal)
      (((cfg0.win 0).blk t).view.read (Elt Ideal) X) (((cfg0.win 1).blk t).view.read (Elt Ideal) HN)
      (((cfg0.win 2).blk t).view.read (Elt Ideal) WS) (((cfg0.win 3).blk t).view.read (Elt Ideal) WN)
      (((cfg0.win 4).blk t).view.read (Elt Ideal) B) (ix2 p q) = _
  refine (Cert.KernelIdeal.BlockValue.stored_apply
      (((cfg0.win 0).blk t).view.read (Elt Ideal) X) (((cfg0.win 1).blk t).view.read (Elt Ideal) HN)
      (((cfg0.win 2).blk t).view.read (Elt Ideal) WS) (((cfg0.win 3).blk t).view.read (Elt Ideal) WN)
      (((cfg0.win 4).blk t).view.read (Elt Ideal) B) p q).trans ?_
  have hs : rowDot (n := 5000) (((cfg0.win 0).blk t).view.read (Elt Ideal) X) (((cfg0.win 2).blk t).view.read (Elt Ideal) WS) p q
      = rowDot X WS (blockRow t p) q :=
    Finset.sum_congr rfl fun k _ => by rw [features_read X t p k, selfWeights_read WS t k q]
  have hn : rowDot (n := 5000) (((cfg0.win 1).blk t).view.read (Elt Ideal) HN) (((cfg0.win 3).blk t).view.read (Elt Ideal) WN) p q
      = rowDot HN WN (blockRow t p) q :=
    Finset.sum_congr rfl fun k _ => by rw [means_read HN t p k, neighWeights_read WN t k q]
  rw [hs, hn, biasRow_read B t q]

/-! ## From blocks to the array -/

variable (m : (ℓ : Loc nD τ sig) → Buf (Elt Ideal) ℓ) (ρ : Dev nD → PrngReg)

/-- The layer of the arrays as the launch finds them. -/
def found (c : Dev nD) : S100000x128.Idx → EReal :=
  layer (V m c main_arg0) (V m c main_call0_v18) (V m c main_arg3) (V m c main_arg4)
    (fun q => (V m c main_call0_v19 : S1x128.Idx → EReal) (ix2 (0 : Fin 1) q))

/-- What point `t` writes back is block `t` of the layer's output. -/
theorem flushed_eq (c : Dev nD) (t : Fin cfg0.N) :
    (dats m 0 c).flushed 5 t = ((cfg0.win 5).blk t).view.read (Elt Ideal) (found m c) := by
  rw [Cert.KernelIdeal.Value.flushed5]
  unfold out0_5
  rw [View.canon_unit_zero origin]
  simp only [View.ld_unit_zero (S := S5000x128) origin, View.ld_unit_zero (S := S128x128) origin, View.ld_unit_zero (S := S1x128) origin]
  exact block_layer (V m c main_arg0) (V m c main_call0_v18) (V m c main_arg3) (V m c main_arg4) (V m c main_call0_v19) t

theorem mem_block (t : Fin cfg0.N) (i : S100000x128.Idx) :
    i ∈ ((cfg0.win 5).blk t).view.set ↔ ∀ a : Fin 2, win0_5.index t a * S5000x128.size a ≤ (i a).val
      ∧ (i a).val < win0_5.index t a * S5000x128.size a + S5000x128.size a := by
  show i ∈ ((View.whole main_v0).slice (win0_5.rect t)).set ↔ _
  rw [View.set_slice_whole, Rect.mem_set_unit]
  exact Iff.rfl

/-- Every entry of the output lies in the block of the point its row falls to. -/
theorem covered (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  have hN : cfg0.N = 20 := N_0
  have ht : (i 0).val / 5000 < cfg0.N := by omega
  obtain ⟨-, -, -, -, -, -, -, -, -, -, e0, e1⟩ := index_maps ⟨(i 0).val / 5000, ht⟩
  refine ⟨⟨(i 0).val / 5000, ht⟩, flush0_5 _, ?_⟩
  rw [mem_block]
  intro a
  match a with
  | ⟨0, _⟩ =>
    show win0_5.index ⟨(i 0).val / 5000, ht⟩ (0 : Fin 2) * 5000 ≤ (i 0).val
      ∧ (i 0).val < win0_5.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win0_5.index ⟨(i 0).val / 5000, ht⟩ (1 : Fin 2) * 128 ≤ (i 1).val
      ∧ (i 1).val < win0_5.index ⟨(i 0).val / 5000, ht⟩ (1 : Fin 2) * 128 + 128
    rw [e1]; omega

/-- The output array after the run is the layer of the arrays as the launch finds them. -/
theorem final_found (c : Dev nD) : (dats m 0 c).arrAt 5 cfg0.N = found m c :=
  (dats m 0 c).arrAt_eq_of_cover 5 (found m c) (fun t _ => flushed_eq m c t) covered

/-- The layer of the ARGUMENT arrays: what both programs are shown to compute. -/
def result (c : Dev nD) : S100000x128.Idx → EReal :=
  layer (m ((c : Thread nD τ).loc main_arg0))
    (neighbourMean (F := Ideal) (m ((c : Thread nD τ).loc main_arg0)) (m ((c : Thread nD τ).loc main_arg1)) (m ((c : Thread nD τ).loc main_arg2)))
    (m ((c : Thread nD τ).loc main_arg3)) (m ((c : Thread nD τ).loc main_arg4))
    (fun q => (m ((c : Thread nD τ).loc main_arg5) : S128.Idx → EReal) (ix1 q))

theorem found_eq (c : Dev nD) : found m c = result m c := by
  unfold found result
  rw [means_found m c, biasRow_found m c, V_main_arg0 m c, V_main_arg3 m c, V_main_arg4 m c]
  refine congrArg (layer _ _ _ _) (funext fun q => ?_)
  exact shapeCast_a_1a_apply _ _ (0 : Fin 1) q

/-- The kernel's run, read: the result array is the layer of the argument arrays, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans ((final_found m c).trans (found_eq m c)), (h c).2⟩)
    (Cert.KernelIdeal.Value.run_blocks m ρ)

end Cert.KernelIdeal.ArrayValue

end
-- ==== Proof.ReferenceLayer.lean ====
/-
  The reference's result is the layer of its arguments, entry by entry.

  The reference forms the neighbour means by the same host operations, multiplies the node features by the first
  weight matrix and the means by the second with one contraction over the 128 features each, adds the two products,
  adds the bias repeated down the rows, and takes the maximum with zero. On the extended reals a contraction read at
  entry `(p, q)` is the sum over the features of row `p` against column `q`, so the result at `(p, q)` is the layer's
  entry. The neighbour means stay the closed stage of the operations that form them; they are not opened.
-/
import proofs.«109456_j23115513987258_1_alg».proof.Proof.Gen.ReferenceIdeal.Read
import proofs.«109456_j23115513987258_1_alg».proof.Proof.SageLayer
import Idealize.ShloMosaic.Lib.ValueIdx

noncomputable section

namespace Cert.ReferenceIdeal.LayerValue

open Cert.ReferenceIdeal Cert.ReferenceIdeal.Gen Cert.ReferenceIdeal.Read Idealize.ShloMosaic Idealize.ShloMosaic.ValueIdx Cert.SageLayer

/-- The reference's result stage is the layer of the node features, the neighbour-means stage, the two weight
    matrices and the bias. -/
theorem result_eq (x0 : (⟨S100000x128, .f32⟩ : BufTy).Contents (Elt Ideal)) (x1 x2 : (⟨S800000, .i32⟩ : BufTy).Contents (Elt Ideal))
    (x3 x4 : (⟨S128x128, .f32⟩ : BufTy).Contents (Elt Ideal)) (x5 : (⟨S128, .f32⟩ : BufTy).Contents (Elt Ideal)) :
    val_main_v25 (F := Ideal) x0 x1 x2 x3 x4 x5
      = layer x0 (val_main_v18 (F := Ideal) x0 x1 x2) x3 x4 (fun q => x5 (ix1 q)) := by
  funext i
  obtain ⟨p, q, rfl⟩ : ∃ (p : Fin 100000) (q : Fin 128), i = ix2 p q := ⟨i 0, i 1, eq_ix2 i⟩
  have selfRow : ∀ k : Fin 128, lidx_main_v19 (ix2 p q) k = ix2 p k := fun k => funext fun a => Fin.ext (by
    match a with
    | ⟨0, _⟩ => rfl
    | ⟨1, _⟩ => rfl)
  have selfCol : ∀ k : Fin 128, ridx_main_v19 (ix2 p q) k = ix2 k q := fun k => funext fun a => Fin.ext (by
    match a with
    | ⟨0, _⟩ => rfl
    | ⟨1, _⟩ => rfl)
  have neighRow : ∀ k : Fin 128, lidx_main_v20 (ix2 p q) k = ix2 p k := fun k => funext fun a => Fin.ext (by
    match a with
    | ⟨0, _⟩ => rfl
    | ⟨1, _⟩ => rfl)
  have neighCol : ∀ k : Fin 128, ridx_main_v20 (ix2 p q) k = ix2 k q := fun k => funext fun a => Fin.ext (by
    match a with
    | ⟨0, _⟩ => rfl
    | ⟨1, _⟩ => rfl)
  have biasAt : idx_main_v22 (idx_main_v23 (ix2 p q)) = ix1 q := funext fun a => Fin.ext (by
    match a with
    | ⟨0, _⟩ => rfl)
  rw [layer_apply, val_main_v25_apply, val_main_v24_apply, val_main_v21_apply, val_main_v19_apply, val_main_v20_apply,
    val_main_v23_apply, val_main_v22_apply, val_main_call0_v0_apply, val_main_call0_cst_apply]
  simp only [selfRow, selfCol, neighRow, neighCol, biasAt]
  rfl

end Cert.ReferenceIdeal.LayerValue

end
-- ==== Proof.SharedPrefix.lean ====
/-
  The two programs form the neighbour means by the same operations.

  Both programs wrap negative source indices by the number of nodes, gather the source rows, sum them into their
  destination rows, count each destination's edges by summing ones, clamp the count below by one and divide. The
  printed operations and their literals are the same on both sides; only the names of the gather's and the two sums'
  dimension records differ, and those records have the same fields. So the kernel program's term and the reference's
  stage are one term, and nothing here looks inside a gather or a sum.
-/
import proofs.«109456_j23115513987258_1_alg».proof.Proof.KernelHostPrefix
import proofs.«109456_j23115513987258_1_alg».proof.Proof.Gen.ReferenceIdeal.Read

noncomputable section

namespace Cert.SharedPrefix

open Idealize.ShloMosaic

/-- The gather of source rows has the same dimension numbers in both programs. -/
theorem gather_dims :
    Cert.KernelIdeal.gather_S100000x128_S800000x1_S800000x128_1_0_n_n_0_1_1128
      = Cert.ReferenceIdeal.gather_S100000x128_S800000x1_S800000x128_1_0_n_n_0_1_1128 := rfl

/-- So has the sum of gathered rows into destination rows. -/
theorem rowSum_dims :
    Cert.KernelIdeal.scatter_S100000x128_S800000x1_S800000x128_1_0_0_1
      = Cert.ReferenceIdeal.scatter_S100000x128_S800000x1_S800000x128_1_0_0_1 := rfl

/-- And the count of edges per destination. -/
theorem count_dims :
    Cert.KernelIdeal.scatter_S100000_S800000x1_S800000_n_0_0_1
      = Cert.ReferenceIdeal.scatter_S100000_S800000x1_S800000_n_0_0_1 := rfl

open Cert.ReferenceIdeal.Read in
/-- The kernel program's neighbour means are the reference's neighbour-means stage, of the same arguments. -/
theorem means_eq (x : (⟨Cert.KernelIdeal.S100000x128, .f32⟩ : BufTy).Contents (Elt Ideal))
    (src dst : (⟨Cert.KernelIdeal.S800000, .i32⟩ : BufTy).Contents (Elt Ideal)) :
    Cert.KernelIdeal.ArrayValue.neighbourMean (F := Ideal) x src dst = val_main_v18 (F := Ideal) x src dst := by
  unfold Cert.KernelIdeal.ArrayValue.neighbourMean val_main_v18 val_main_v17 val_main_v16 val_main_v15 val_main_v14 val_main_cst_3
    val_main_v13 val_main_v12 val_main_v11 val_main_cst_2 val_main_v10 val_main_cst_1 val_main_v9 val_main_v8 val_main_v7
    val_main_cst val_main_v6 val_main_v5 val_main_v4 val_main_v3 val_main_v2 val_main_c_0 val_main_v1 val_main_v0 val_main_c
  rw [gather_dims, rowSum_dims, count_dims]

end Cert.SharedPrefix

end
-- ==== Proof.lean ====
/-
  A mean-aggregating graph layer: a tiled kernel against the plain formula, equal on the extended reals.

  Both programs take node features `x` (100000 × 128), edge sources and destinations (800000 each), two 128 × 128
  weight matrices and a bias of 128 entries. Both first form the neighbour means `hn` by the same host operations: the
  source rows gathered, summed into their destination rows, and divided by the destination's edge count clamped below
  by one. The kernel then computes, twenty blocks of 5000 rows at a time, `max((x·W₁ + hn·W₂) + b, 0)` with each
  product accumulated into zero; the reference computes the same expression on whole arrays. On the extended reals a
  narrowing of the float format is the identity, a product accumulated into zero is the sum over the 128 contracted
  features, and the two programs add the three summands in the same order, so the results agree entry by entry with
  no appeal to finiteness of the inputs:
    · every entry of the kernel's output array is the layer's entry from the argument arrays (the stored value at an
      entry, the blocks as rows of the arrays, the twenty blocks covering the array);
    · so is every entry of the reference's result (its operations read one at a time);
    · the neighbour means are one term in both programs.
  The three frame claims are the programs' runs; the idealization rewrote no operation, so there is nothing to
  preserve beyond the text itself.
-/
import proofs.«109456_j23115513987258_1_alg».proof.Defs
import proofs.«109456_j23115513987258_1_alg».proof.Proof.Gen.Kernel
import proofs.«109456_j23115513987258_1_alg».proof.Proof.Gen.Kernel.Skeleton
import proofs.«109456_j23115513987258_1_alg».proof.Proof.Gen.Kernel.Launch
import proofs.«109456_j23115513987258_1_alg».proof.Proof.Gen.Kernel.Points
import proofs.«109456_j23115513987258_1_alg».proof.Proof.Gen.Kernel.Frame
import proofs.«109456_j23115513987258_1_alg».proof.Proof.Gen.KernelIdeal
import proofs.«109456_j23115513987258_1_alg».proof.Proof.Gen.KernelIdeal.Skeleton
import proofs.«109456_j23115513987258_1_alg».proof.Proof.Gen.KernelIdeal.Launch
import proofs.«109456_j23115513987258_1_alg».proof.Proof.Gen.KernelIdeal.Points
import proofs.«109456_j23115513987258_1_alg».proof.Proof.Gen.KernelIdeal.Frame
import proofs.«109456_j23115513987258_1_alg».proof.Proof.Gen.ReferenceIdeal
import proofs.«109456_j23115513987258_1_alg».proof.Proof.Gen.Pre_finite_inputs
import proofs.«109456_j23115513987258_1_alg».proof.Proof.Gen.KernelIdeal.Value
import proofs.«109456_j23115513987258_1_alg».proof.Proof.Gen.ReferenceIdeal.Run
import proofs.«109456_j23115513987258_1_alg».proof.Proof.Gen.ReferenceIdeal.Read
import proofs.«109456_j23115513987258_1_alg».proof.Proof.KernelArray
import proofs.«109456_j23115513987258_1_alg».proof.Proof.ReferenceLayer
import proofs.«109456_j23115513987258_1_alg».proof.Proof.SharedPrefix
import Idealize.ShloMosaic.Adequacy
import Idealize.ShloMosaic.Init

noncomputable section

namespace Cert.Proof

open Idealize.ShloMosaic Idealize.SL.Sem

/-- The kernel's program as printed runs and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- And the reference: its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the arguments, the kernel's output array and the reference's result are both the
    layer of the argument arrays: the kernel's by its run read block by block, the reference's by its operations read
    one at a time, with the neighbour means the same term in both. -/
theorem algebraic : Cert.algebraic_KernelIdeal_ReferenceIdeal := by
  intro m ρ m' ρ' _ hagree
  refine ⟨fun c => Cert.KernelIdeal.ArrayValue.result m c, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5⟩ := hagree c
  rw [Cert.ReferenceIdeal.Read.val_main_v25_eq, Cert.ReferenceIdeal.LayerValue.result_eq, a0, a1, a2, a3, a4, a5,
    ← Cert.SharedPrefix.means_eq]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
